-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000x16 : Shape := ⟨2, ![3200000, 16]⟩
abbrev S160x128 : Shape := ⟨2, ![160, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000x16 : S_.BroadcastsInDim S3200000x16 (![] : Fin 0 → Fin S3200000x16.rank)
  reducesTo_S3200000x16_S_d0_1 : S3200000x16.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x3200000 32) (main_arg2 : FVec F S3200000x16 .f32) (main_arg3 : FVec F S160x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000x16 .f32 := Host.absf main_arg2
  let main_cst_0 : FVec F S_ .f32 := constant S_ .f32 0x7F800000#32
  let main_v5 : FVec F S3200000x16 .f32 := broadcastInDim S3200000x16 ![] bcast_S_S3200000x16 main_cst_0
  let main_v6 : IVec S3200000x16 1 := cmpf .olt main_v4 main_v5
  let main_c_1 : IVec S_ 1 := constantI S_ 1 1#1
  let main_v7 : IVec S_ 1 := (fun x v => Host.reduce IntOp.andi x v reducesTo_S3200000x16_S_d0_1 h_S_) main_v6 main_c_1
  let main_v8 : IVec S_ 1 := andi main_v3 main_v7
  let main_v9 : FVec F S160x128 .f32 := Host.absf main_arg3
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x3200000 : Shape := ⟨2, ![2, 3200000]⟩
abbrev S3200000x16 : Shape := ⟨2, ![3200000, 16]⟩
abbrev S160x128 : Shape := ⟨2, ![160, 128]⟩
abbrev S128 : Shape := ⟨1, ![128]⟩
abbrev S128x128 : Shape := ⟨2, ![128, 128]⟩
abbrev S1x3200000 : Shape := ⟨2, ![1, 3200000]⟩
abbrev S3200000 : Shape := ⟨1, ![3200000]⟩
abbrev S_ : Shape := ⟨0, ![]⟩
abbrev S100000x16 : Shape := ⟨2, ![100000, 16]⟩
abbrev S3200000x1 : Shape := ⟨2, ![3200000, 1]⟩
abbrev S100000 : Shape := ⟨1, ![100000]⟩
abbrev S100000x1 : Shape := ⟨2, ![100000, 1]⟩
abbrev S2000x128 : Shape := ⟨2, ![2000, 128]⟩
abbrev S2000x16 : Shape := ⟨2, ![2000, 16]⟩
abbrev S2000x160 : Shape := ⟨2, ![2000, 160]⟩
abbrev S1x128 : Shape := ⟨2, ![1, 128]⟩

abbrev nBuf : Space → Nat
  | .hbm => 44
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000x16, .f32⟩
  | .hbm, ⟨3, _⟩ => ⟨S160x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S_, .f32⟩
  | .hbm, ⟨12, _⟩ => ⟨S100000x16, .f32⟩
  | .hbm, ⟨13, _⟩ => ⟨S3200000x1, .i32⟩
  | .hbm, ⟨14, _⟩ => ⟨S100000x16, .f32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x16, .f32⟩
  | .hbm, ⟨26, _⟩ => ⟨S100000x16, .f32⟩
  | .hbm, ⟨27, _⟩ => ⟨S_, .f32⟩
  | .hbm, ⟨28, _⟩ => ⟨S100000x16, .f32⟩
  | .hbm, ⟨29, _⟩ => ⟨S3200000x1, .i32⟩
  | .hbm, ⟨30, _⟩ => ⟨S100000x16, .f32⟩
  | .hbm, ⟨31, _⟩ => ⟨S_, .f32⟩
  | .hbm, ⟨32, _⟩ => ⟨S3200000, .f32⟩
  | .hbm, ⟨33, _⟩ => ⟨S_, .f32⟩
  | .hbm, ⟨34, _⟩ => ⟨S100000, .f32⟩
  | .hbm, ⟨35, _⟩ => ⟨S3200000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x16, .f32⟩
  | .hbm, ⟨42, _⟩ => ⟨S100000x16, .f32⟩
  | .hbm, ⟨43, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S160x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000x16 : S_.BroadcastsInDim S100000x16 (![] : Fin 0 → Fin S100000x16.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  inb_S2000x128_S2000x128_0_0 : ∀ a, (![0, 0] : Fin 2 → Nat) a + S2000x128.size a ≤ S2000x128.size a
  h_S2000x128 : 0 < S2000x128.numel
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  concatenates_S2000x128_S2000x16_S2000x16_S2000x160_d1 : Shape.Concatenates [S2000x128, S2000x16, S2000x16] S2000x160 1
  bitsLt_bf16_f32 : FTy.bits .bf16 < FTy.bits .f32
  inb_S160x128_S160x128_0_0 : ∀ a, (![0, 0] : Fin 2 → Nat) a + S160x128.size a ≤ S160x128.size a
  h_S160x128 : 0 < S160x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  dot_S2000x160_S160x128_S2000x128_1_0_0_1_n_n_wf : DotDims.WF S2000x160 S160x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x16.size a ≤ S100000x16.size a
  hwx0_1 : ∀ i : grid0.Coords, EltTy.bits .f32 = 32 ∨ (Rect.block (s := S100000x16) S2000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x128.size a ≤ S160x128.size a
  hwx0_3 : ∀ i : grid0.Coords, EltTy.bits .f32 = 32 ∨ (Rect.block (s := S160x128) S160x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)

variable [Facts₀]

def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S2000x160_S160x128_S2000x128_1_0_0_1_n_n : DotDims S2000x160 S160x128 S2000x128 where
  lhsContracting := [1]
  rhsContracting := [0]
  lhsNonContracting := [0]
  rhsNonContracting := [1]
  lhsBatch := []
  rhsBatch := []
  wf := dot_S2000x160_S160x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S160x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000x16 : Shape := ⟨2, ![3200000, 16]⟩
abbrev S160x128 : Shape := ⟨2, ![160, 128]⟩
abbrev S128 : Shape := ⟨1, ![128]⟩
abbrev S128x128 : Shape := ⟨2, ![128, 128]⟩
abbrev S1x3200000 : Shape := ⟨2, ![1, 3200000]⟩
abbrev S3200000 : Shape := ⟨1, ![3200000]⟩
abbrev S_ : Shape := ⟨0, ![]⟩
abbrev S100000x16 : Shape := ⟨2, ![100000, 16]⟩
abbrev S3200000x1 : Shape := ⟨2, ![3200000, 1]⟩
abbrev S100000 : Shape := ⟨1, ![100000]⟩
abbrev S100000x1 : Shape := ⟨2, ![100000, 1]⟩
abbrev S100000x160 : Shape := ⟨2, ![100000, 160]⟩
abbrev S1x128 : Shape := ⟨2, ![1, 128]⟩

abbrev nBuf : Space → Nat
  | .hbm => 59
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000x16, .f32⟩
  | .hbm, ⟨3, _⟩ => ⟨S160x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S_, .f32⟩
  | .hbm, ⟨12, _⟩ => ⟨S100000x16, .f32⟩
  | .hbm, ⟨13, _⟩ => ⟨S3200000x1, .i32⟩
  | .hbm, ⟨14, _⟩ => ⟨S100000x16, .f32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x16, .f32⟩
  | .hbm, ⟨26, _⟩ => ⟨S100000x16, .f32⟩
  | .hbm, ⟨27, _⟩ => ⟨S_, .f32⟩
  | .hbm, ⟨28, _⟩ => ⟨S100000x16, .f32⟩
  | .hbm, ⟨29, _⟩ => ⟨S3200000x1, .i32⟩
  | .hbm, ⟨30, _⟩ => ⟨S100000x16, .f32⟩
  | .hbm, ⟨31, _⟩ => ⟨S_, .f32⟩
  | .hbm, ⟨32, _⟩ => ⟨S3200000, .f32⟩
  | .hbm, ⟨33, _⟩ => ⟨S_, .f32⟩
  | .hbm, ⟨34, _⟩ => ⟨S100000, .f32⟩
  | .hbm, ⟨35, _⟩ => ⟨S3200000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x16, .f32⟩
  | .hbm, ⟨42, _⟩ => ⟨S100000x16, .f32⟩
  | .hbm, ⟨43, _⟩ => ⟨S100000x160, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .i1⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000x16 : S_.BroadcastsInDim S100000x16 (![] : Fin 0 → Fin S100000x16.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  concatenates_S100000x128_S100000x16_S100000x16_S100000x160_d1 : Shape.Concatenates [S100000x128, S100000x16, S100000x16] S100000x160 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  dot_S100000x160_S160x128_S100000x128_1_0_0_1_n_n_wf : DotDims.WF S100000x160 S160x128 S100000x128 [1] [0] [0] [1] [] []
  dot_S100000x128_S128x128_S100000x128_1_0_0_1_n_n_wf : DotDims.WF S100000x128 S128x128 S100000x128 [1] [0] [0] [1] [] []

variable [Facts₀]

def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x160_S160x128_S100000x128_1_0_0_1_n_n : DotDims S100000x160 S160x128 S100000x128 where
  lhsContracting := [1]
  rhsContracting := [0]
  lhsNonContracting := [0]
  rhsNonContracting := [1]
  lhsBatch := []
  rhsBatch := []
  wf := dot_S100000x160_S160x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.MlpRow.lean ====
/-
  The function both programs compute, one output row at a time, over the extended reals.

  A node's feature row is its 128 own features followed by the 16 means of its incoming edge attributes and the 16 means
  of its outgoing ones: 160 entries. The first layer sends the row f to h(k) = Σ_c f(c)·W1(c, k) + b1(k), the activation
  keeps h(k) where h(k) ≥ 0 and replaces it by s·h(k) elsewhere (s the slope's binary value), and the second layer sends
  the activated row g to Σ_k g(k)·W2(k, q) + b2(q). Output row a depends on row a of the three inputs only, which is why
  a program that treats the rows in tiles and one that treats them all at once agree.

  Also here: a concatenation of an n×128, an n×16 and an n×16 array along the second axis, read at (a, c), is entry c of
  the concatenated row a.
-/
import Idealize.ShloMosaic.PureOps.Ideal
import Idealize.ShloMosaic.Lib.ValueIdx
import Idealize.ShloMosaic.Lib.Pipeline.Value

noncomputable section

namespace Cert.Mlp

open Idealize.ShloMosaic Idealize.ShloMosaic.ValueIdx

/-- Row a of the concatenation: entries 0–127 from the first piece, 128–143 from the second, 144–159 from the third. -/
def catRow {α : Type} (xr : Fin 128 → α) (rr sr : Fin 16 → α) (c : Fin 160) : α :=
  if h : c.val < 128 then xr ⟨c.val, h⟩
  else if h' : c.val < 144 then rr ⟨c.val - 128, by omega⟩
  else sr ⟨c.val - 144, by omega⟩

/-- The activation: h where h ≥ 0, the slope's binary value times h elsewhere. -/
def leaky (h : Ideal .f32) : Ideal .f32 :=
  Scalar.select (FloatOps.cmpf .oge h (Ideal.ofBits .f32 0x00000000#32)) h (Ideal.ofBits .f32 0x3C23D70A#32 * h)

/-- Entry k of the first layer on a feature row. -/
def hidden (feat : Fin 160 → Ideal .f32) (W1 : (⟨2, ![160, 128]⟩ : Shape).Idx → Ideal .f32)
    (b1 : (⟨1, ![128]⟩ : Shape).Idx → Ideal .f32) (k : Fin 128) : Ideal .f32 :=
  (∑ c : Fin 160, feat c * W1 (ix2 c k)) + b1 (ix1 k)

/-- Entry q of the output row of a node whose three input rows are xr, rr, sr. -/
def mlpRow (xr : Fin 128 → Ideal .f32) (rr sr : Fin 16 → Ideal .f32)
    (W1 : (⟨2, ![160, 128]⟩ : Shape).Idx → Ideal .f32) (b1 : (⟨1, ![128]⟩ : Shape).Idx → Ideal .f32)
    (W2 : (⟨2, ![128, 128]⟩ : Shape).Idx → Ideal .f32) (b2 : (⟨1, ![128]⟩ : Shape).Idx → Ideal .f32) (q : Fin 128) : Ideal .f32 :=
  (∑ k : Fin 128, leaky (hidden (catRow xr rr sr) W1 b1 k) * W2 (ix2 k q)) + b2 (ix1 q)

/-- The whole output: entry (a, q) is entry q of the output row of node a. -/
def mlp (X : (⟨2, ![100000, 128]⟩ : Shape).Idx → Ideal .f32) (R S : (⟨2, ![100000, 16]⟩ : Shape).Idx → Ideal .f32)
    (W1 : (⟨2, ![160, 128]⟩ : Shape).Idx → Ideal .f32) (b1 : (⟨1, ![128]⟩ : Shape).Idx → Ideal .f32)
    (W2 : (⟨2, ![128, 128]⟩ : Shape).Idx → Ideal .f32) (b2 : (⟨1, ![128]⟩ : Shape).Idx → Ideal .f32) :
    (⟨2, ![100000, 128]⟩ : Shape).Idx → Ideal .f32 := fun i =>
  mlpRow (fun c => X (ix2 (⟨(i 0).val, (i 0).isLt⟩ : Fin 100000) c)) (fun c => R (ix2 (⟨(i 0).val, (i 0).isLt⟩ : Fin 100000) c))
    (fun c => S (ix2 (⟨(i 0).val, (i 0).isLt⟩ : Fin 100000) c)) W1 b1 W2 b2 (⟨(i 1).val, (i 1).isLt⟩ : Fin 128)

theorem mlp_ix2 (X : (⟨2, ![100000, 128]⟩ : Shape).Idx → Ideal .f32) (R S : (⟨2, ![100000, 16]⟩ : Shape).Idx → Ideal .f32)
    (W1 : (⟨2, ![160, 128]⟩ : Shape).Idx → Ideal .f32) (b1 : (⟨1, ![128]⟩ : Shape).Idx → Ideal .f32)
    (W2 : (⟨2, ![128, 128]⟩ : Shape).Idx → Ideal .f32) (b2 : (⟨1, ![128]⟩ : Shape).Idx → Ideal .f32)
    (a : Fin 100000) (q : Fin 128) :
    mlp X R S W1 b1 W2 b2 (ix2 a q)
      = mlpRow (fun c => X (ix2 a c)) (fun c => R (ix2 a c)) (fun c => S (ix2 a c)) W1 b1 W2 b2 q := rfl

/-- Three pieces of n rows and 128, 16, 16 columns joined along the columns, read at (a, c): entry c of the joined row a. -/
theorem concat3_apply {n : Nat} {α : Type} (x : (⟨2, ![n, 128]⟩ : Shape).Idx → α) (r s : (⟨2, ![n, 16]⟩ : Shape).Idx → α)
    (h : Shape.Concatenates (([⟨⟨2, ![n, 128]⟩, x⟩, ⟨⟨2, ![n, 16]⟩, r⟩, ⟨⟨2, ![n, 16]⟩, s⟩] :
      List ((s : Shape) × (s.Idx → α))).map (·.1)) ⟨2, ![n, 160]⟩ 1)
    (a : Fin n) (c : Fin 160) :
    concatenate ⟨2, ![n, 160]⟩ 1 [⟨⟨2, ![n, 128]⟩, x⟩, ⟨⟨2, ![n, 16]⟩, r⟩, ⟨⟨2, ![n, 16]⟩, s⟩] h (ix2 a c)
      = catRow (fun c => x (ix2 a c)) (fun c => r (ix2 a c)) (fun c => s (ix2 a c)) c := by
  unfold catRow
  split_ifs with h1 h2
  · refine concatenate_apply_piece 1 _ h (ix2 a c) 0 (Nat.zero_lt_succ 2) ⟨2, ![n, 128]⟩ x rfl rfl 0 rfl (ix2 a ⟨c.val, h1⟩) (fun b hb => ?_) ?_
    · match b with
      | ⟨0, _⟩ => rfl
      | ⟨1, _⟩ => exact absurd rfl hb
    · show 0 + c.val = c.val
      omega
  · refine concatenate_apply_piece 1 _ h (ix2 a c) 1 (Nat.succ_lt_succ (Nat.zero_lt_succ 1)) ⟨2, ![n, 16]⟩ r rfl rfl 128 rfl (ix2 a ⟨c.val - 128, by omega⟩) (fun b hb => ?_) ?_
    · match b with
      | ⟨0, _⟩ => rfl
      | ⟨1, _⟩ => exact absurd rfl hb
    · show 128 + (c.val - 128) = c.val
      omega
  · refine concatenate_apply_piece 1 _ h (ix2 a c) 2 (Nat.succ_lt_succ (Nat.succ_lt_succ (Nat.zero_lt_succ 0))) ⟨2, ![n, 16]⟩ s rfl rfl 144 rfl (ix2 a ⟨c.val - 144, by omega⟩) (fun b hb => ?_) ?_
    · match b with
      | ⟨0, _⟩ => rfl
      | ⟨1, _⟩ => exact absurd rfl hb
    · show 144 + (c.val - 144) = c.val
      have := c.isLt
      omega

end Cert.Mlp

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.BodyRow.lean ====
/-
  What the kernel body stores, read at one entry.

  The body joins its three row blocks (2000 rows of 128, 16 and 16 columns) into 2000 rows of 160, multiplies by W1 into
  a zero accumulator, adds b1 along the rows, applies the activation, multiplies by W2 into a zero accumulator and adds
  b2. The narrowings to the 16-bit format are the identity on extended reals, each product into the zero accumulator is
  the plain sum over the contracted coordinate, and a bias cast to one row and repeated down the rows reads its own
  entry. So entry (p, q) of the stored block is entry q of the output row whose inputs are row p of the three blocks.
-/
import proofs.«167625_j74620761800880_1_alg».proof.Proof.Gen.KernelIdeal.Skeleton
import proofs.«167625_j74620761800880_1_alg».proof.Proof.MlpRow
import proofs.«167625_j74620761800880_1_alg».proof.Proof.LibMatmulPlain
import Idealize.ShloMosaic.Lib.ValueLayout

noncomputable section

namespace Cert.KernelIdeal.Body

open Cert.KernelIdeal Cert.KernelIdeal.Gen Idealize.ShloMosaic Idealize.ShloMosaic.ValueIdx

/-- A bias of 128 entries cast to one row and repeated down 2000 rows reads, at (p, q), its entry q. -/
theorem bias_apply (b : Vec Ideal S128 .f32) (p : Fin 2000) (q : Fin 128) :
    broadcastTo S2000x128 (shapeCast S1x128 b shapeCasts_S128_S1x128) broadcasts_S1x128_S2000x128 (ix2 p q) = b (ix1 q) :=
  (broadcastTo_1b_ab_apply _ broadcasts_S1x128_S2000x128 p q).trans (shapeCast_a_1a_apply b shapeCasts_S128_S1x128 0 q)

/-- The first layer before the activation, as the body computes it from its blocks. -/
def pre (v0 : Vec Ideal S2000x128 .f32) (v1 v3 : Vec Ideal S2000x16 .f32) (v7 : Vec Ideal S160x128 .f32)
    (v10 : Vec Ideal S128 .f32) : FVec Ideal S2000x128 .f32 :=
  addf (matmul dot_S2000x160_S160x128_S2000x128_1_0_0_1_n_n none
      (truncf .bf16 (concatenate S2000x160 1 [⟨S2000x128, v0⟩, ⟨S2000x16, shapeCast S2000x16 v1 shapeCasts_S2000x16_S2000x16⟩,
        ⟨S2000x16, shapeCast S2000x16 v3 shapeCasts_S2000x16_S2000x16⟩] concatenates_S2000x128_S2000x16_S2000x16_S2000x160_d1) bitsLt_bf16_f32)
      (truncf .bf16 v7 bitsLt_bf16_f32) (constant S2000x128 .f32 0x00000000#32))
    (broadcastTo S2000x128 (shapeCast S1x128 v10 shapeCasts_S128_S1x128) broadcasts_S1x128_S2000x128)

/-- Entry (p, k) of the first layer is the hidden entry k of the joined row p. -/
theorem pre_apply (v0 : Vec Ideal S2000x128 .f32) (v1 v3 : Vec Ideal S2000x16 .f32) (v7 : Vec Ideal S160x128 .f32)
    (v10 : Vec Ideal S128 .f32) (p : Fin 2000) (k : Fin 128) :
    pre v0 v1 v3 v7 v10 (ix2 p k)
      = Cert.Mlp.hidden (Cert.Mlp.catRow (fun c => v0 (ix2 p c)) (fun c => v1 (ix2 p c)) (fun c => v3 (ix2 p c))) v7 v10 k := by
  unfold pre Cert.Mlp.hidden
  rw [shapeCast_self, shapeCast_self]
  refine congrArg₂ (· + ·) ?_ (bias_apply v10 p k)
  refine (Cert.LibMatmulPlain.matmul_plain_zero_apply (m := 2000) (k := 160) (n := 128) none _ _ p k).trans ?_
  refine Finset.sum_congr rfl fun c _ => ?_
  refine congrArg (· * v7 (ix2 c k)) ?_
  exact Cert.Mlp.concat3_apply (n := 2000) v0 v1 v3 concatenates_S2000x128_S2000x16_S2000x16_S2000x160_d1 p c

/-- Entry (p, q) of the stored block is entry q of the output row of the blocks' rows p. -/
theorem pay_apply (v0 : Vec Ideal S2000x128 .f32) (v1 v3 : Vec Ideal S2000x16 .f32) (v7 : Vec Ideal S160x128 .f32)
    (v10 : Vec Ideal S128 .f32) (v20 : Vec Ideal S128x128 .f32) (v23 : Vec Ideal S128 .f32) (p : Fin 2000) (q : Fin 128) :
    k0_pay1 (F := Ideal) v0 v1 v3 v7 v10 v20 v23 (ix2 p q)
      = Cert.Mlp.mlpRow (fun c => v0 (ix2 p c)) (fun c => v1 (ix2 p c)) (fun c => v3 (ix2 p c)) v7 v10 v20 v23 q := by
  unfold Cert.Mlp.mlpRow
  show (matmul dot_S2000x128_S128x128_S2000x128_1_0_0_1_n_n none
        (truncf .bf16 (select (cmpf .oge (pre v0 v1 v3 v7 v10) (broadcast S2000x128 (Scalar.ofBits .f32 0x00000000#32)))
          (pre v0 v1 v3 v7 v10) (mulf (broadcast S2000x128 (Scalar.ofBits .f32 0x3C23D70A#32)) (pre v0 v1 v3 v7 v10))) bitsLt_bf16_f32)
        (truncf .bf16 v20 bitsLt_bf16_f32) (constant S2000x128 .f32 0x00000000#32) (ix2 p q))
      + broadcastTo S2000x128 (shapeCast S1x128 v23 shapeCasts_S128_S1x128) broadcasts_S1x128_S2000x128 (ix2 p q) = _
  refine congrArg₂ (· + ·) ?_ (bias_apply v23 p q)
  refine (Cert.LibMatmulPlain.matmul_plain_zero_apply (m := 2000) (k := 128) (n := 128) none _ _ p q).trans ?_
  refine Finset.sum_congr rfl fun k _ => ?_
  refine congrArg (· * v20 (ix2 k q)) ?_
  show Cert.Mlp.leaky (pre v0 v1 v3 v7 v10 (ix2 p k)) = _
  rw [pre_apply]

end Cert.KernelIdeal.Body

end
-- ==== Proof.KernelWhole.lean ====
/-
  From the kernel's 50 row tiles to its whole result.

  Grid point t stages rows 2000·t … 2000·t + 1999 of x and of the two arrays of means, the whole of W1, b1, W2, b2, and
  writes back rows 2000·t … 2000·t + 1999 of the result. An output row depends on the same row of the three row-tiled
  inputs only, so what point t writes back is tile t of the row function of the arrays as the kernel finds them; the 50
  tiles cover every row (row r lies in tile r / 2000), so the result array is that row function.
-/
import proofs.«167625_j74620761800880_1_alg».proof.Proof.Gen.KernelIdeal.Value
import proofs.«167625_j74620761800880_1_alg».proof.Proof.BodyRow

set_option maxRecDepth 16384

noncomputable section

namespace Cert.KernelIdeal.Whole

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-- The row function of the arrays as the kernel finds them when the tiles start. -/
abbrev whole (c : Dev nD) : S100000x128.Idx → Ideal .f32 :=
  Cert.Mlp.mlp (V m c main_arg0) (V m c main_v15) (V m c main_v27) (V m c main_arg3) (V m c main_arg4) (V m c main_arg5)
    (V m c main_arg6)

/-- The index maps over the 50 points: the three row-tiled inputs and the output are at tile t, the weights and biases at
    their one block. -/
theorem tile_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row p of tile t is row 2000·t + p of the array. -/
def row (t : Fin cfg0.N) (p : Fin 2000) : Fin 100000 :=
  ⟨t.val * 2000 + p.val, by
    have ht : t.val < grid0.N := t.isLt
    rw [N_0] at ht
    have hp := p.isLt
    omega⟩

/-- The index (p, q) of a 2000×128 tile. -/
abbrev at128 (p : Fin 2000) (q : Fin 128) : S2000x128.Idx := ix2 p q
/-- The index (p, q) of a 2000×16 tile. -/
abbrev at16 (p : Fin 2000) (q : Fin 16) : S2000x16.Idx := ix2 p q

/-- An output row depends on its three input rows entry by entry. -/
theorem mlpRow_congr {xr xr' : Fin 128 → Ideal .f32} {rr rr' sr sr' : Fin 16 → Ideal .f32}
    (hx : ∀ c, xr c = xr' c) (hr : ∀ c, rr c = rr' c) (hs : ∀ c, sr c = sr' c)
    (W1 : (⟨2, ![160, 128]⟩ : Shape).Idx → Ideal .f32) (b1 : (⟨1, ![128]⟩ : Shape).Idx → Ideal .f32)
    (W2 : (⟨2, ![128, 128]⟩ : Shape).Idx → Ideal .f32) (b2 : (⟨1, ![128]⟩ : Shape).Idx → Ideal .f32) (q : Fin 128) :
    Cert.Mlp.mlpRow xr rr sr W1 b1 W2 b2 q = Cert.Mlp.mlpRow xr' rr' sr' W1 b1 W2 b2 q := by
  rw [funext hx, funext hr, funext hs]

/-! ## Where a block's entry sits in its array -/

theorem emb0 (t : Fin cfg0.N) (p : Fin 2000) (c' : Fin 128) :
    ((cfg0.win 0).blk t).view.emb (at128 p c') = ix2 (row t p) c' := by
  obtain ⟨e0, e1, -⟩ := tile_facts t
  funext a; apply Fin.ext
  match a with
  | ⟨0, _⟩ => show win0_0.index t (0 : Fin 2) * 2000 + 1 * p.val = t.val * 2000 + p.val; omega
  | ⟨1, _⟩ => show win0_0.index t (1 : Fin 2) * 128 + 1 * c'.val = c'.val; omega

theorem emb1 (t : Fin cfg0.N) (p : Fin 2000) (c' : Fin 16) :
    ((cfg0.win 1).blk t).view.emb (at16 p c') = ix2 (row t p) c' := by
  obtain ⟨-, -, e0, e1, -⟩ := tile_facts t
  funext a; apply Fin.ext
  match a with
  | ⟨0, _⟩ => show win0_1.index t (0 : Fin 2) * 2000 + 1 * p.val = t.val * 2000 + p.val; omega
  | ⟨1, _⟩ => show win0_1.index t (1 : Fin 2) * 16 + 1 * c'.val = c'.val; omega

theorem emb2 (t : Fin cfg0.N) (p : Fin 2000) (c' : Fin 16) :
    ((cfg0.win 2).blk t).view.emb (at16 p c') = ix2 (row t p) c' := by
  obtain ⟨-, -, -, -, e0, e1, -⟩ := tile_facts t
  funext a; apply Fin.ext
  match a with
  | ⟨0, _⟩ => show win0_2.index t (0 : Fin 2) * 2000 + 1 * p.val = t.val * 2000 + p.val; omega
  | ⟨1, _⟩ => show win0_2.index t (1 : Fin 2) * 16 + 1 * c'.val = c'.val; omega

theorem emb3 (t : Fin cfg0.N) (y : S160x128.Idx) : ((cfg0.win 3).blk t).view.emb y = y := by
  obtain ⟨-, -, -, -, -, -, e0, e1, -⟩ := tile_facts t
  funext a; apply Fin.ext
  match a with
  | ⟨0, _⟩ => show win0_3.index t (0 : Fin 2) * 160 + 1 * (y 0).val = (y 0).val; omega
  | ⟨1, _⟩ => show win0_3.index t (1 : Fin 2) * 128 + 1 * (y 1).val = (y 1).val; omega

theorem emb4 (t : Fin cfg0.N) (y : S128.Idx) : ((cfg0.win 4).blk t).view.emb y = y := by
  obtain ⟨-, -, -, -, -, -, -, -, e0, -⟩ := tile_facts t
  funext a; apply Fin.ext
  match a with
  | ⟨0, _⟩ => show win0_4.index t (0 : Fin 1) * 128 + 1 * (y 0).val = (y 0).val; omega

theorem emb5 (t : Fin cfg0.N) (y : S128x128.Idx) : ((cfg0.win 5).blk t).view.emb y = y := by
  obtain ⟨-, -, -, -, -, -, -, -, -, e0, e1, -⟩ := tile_facts t
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem emb6 (t : Fin cfg0.N) (y : S128.Idx) : ((cfg0.win 6).blk t).view.emb y = y := by
  obtain ⟨-, -, -, -, -, -, -, -, -, -, -, e0, -⟩ := tile_facts t
  funext a; apply Fin.ext
  match a with
  | ⟨0, _⟩ => show win0_6.index t (0 : Fin 1) * 128 + 1 * (y 0).val = (y 0).val; omega

theorem emb7 (t : Fin cfg0.N) (p : Fin 2000) (q : Fin 128) :
    ((cfg0.win 7).blk t).view.emb (at128 p q) = ix2 (row t p) q := by
  obtain ⟨-, -, -, -, -, -, -, -, -, -, -, -, e0, e1⟩ := tile_facts t
  funext a; apply Fin.ext
  match a with
  | ⟨0, _⟩ => show win0_7.index t (0 : Fin 2) * 2000 + 1 * p.val = t.val * 2000 + p.val; omega
  | ⟨1, _⟩ => show win0_7.index t (1 : Fin 2) * 128 + 1 * q.val = q.val; omega

/-! ## Each staged block, read where the output's tile says

Whatever the contents `A` of a row-tiled array, entry (p, c) of its block at point t is `A` at (2000·t + p, c); the one
block of an untiled array is the array itself. The arrays of means enter only through this, as arrays. -/

theorem read0 (c : Dev nD) (t : Fin cfg0.N) (p : Fin 2000) (c' : Fin 128) (A : Buf (Elt Ideal) ((c : Thread nD τ).loc main_arg0)) :
    ((cfg0.win 0).blk t).view.read (Elt Ideal) A (at128 p c') = A (ix2 (row t p) c') := by
  show A (((cfg0.win 0).blk t).view.emb (at128 p c')) = _
  rw [emb0]

theorem read1 (c : Dev nD) (t : Fin cfg0.N) (p : Fin 2000) (c' : Fin 16) (A : Buf (Elt Ideal) ((c : Thread nD τ).loc main_v15)) :
    ((cfg0.win 1).blk t).view.read (Elt Ideal) A (at16 p c') = A (ix2 (row t p) c') := by
  show A (((cfg0.win 1).blk t).view.emb (at16 p c')) = _
  rw [emb1]

theorem read2 (c : Dev nD) (t : Fin cfg0.N) (p : Fin 2000) (c' : Fin 16) (A : Buf (Elt Ideal) ((c : Thread nD τ).loc main_v27)) :
    ((cfg0.win 2).blk t).view.read (Elt Ideal) A (at16 p c') = A (ix2 (row t p) c') := by
  show A (((cfg0.win 2).blk t).view.emb (at16 p c')) = _
  rw [emb2]

theorem read3 (c : Dev nD) (t : Fin cfg0.N) (A : Buf (Elt Ideal) ((c : Thread nD τ).loc main_arg3)) :
    ((cfg0.win 3).blk t).view.read (Elt Ideal) A = A := by
  funext y
  show A (((cfg0.win 3).blk t).view.emb y) = _
  rw [emb3]

theorem read4 (c : Dev nD) (t : Fin cfg0.N) (A : Buf (Elt Ideal) ((c : Thread nD τ).loc main_arg4)) :
    ((cfg0.win 4).blk t).view.read (Elt Ideal) A = A := by
  funext y
  show A (((cfg0.win 4).blk t).view.emb y) = _
  rw [emb4]

theorem read5 (c : Dev nD) (t : Fin cfg0.N) (A : Buf (Elt Ideal) ((c : Thread nD τ).loc main_arg5)) :
    ((cfg0.win 5).blk t).view.read (Elt Ideal) A = A := by
  funext y
  show A (((cfg0.win 5).blk t).view.emb y) = _
  rw [emb5]

theorem read6 (c : Dev nD) (t : Fin cfg0.N) (A : Buf (Elt Ideal) ((c : Thread nD τ).loc main_arg6)) :
    ((cfg0.win 6).blk t).view.read (Elt Ideal) A = A := by
  funext y
  show A (((cfg0.win 6).blk t).view.emb y) = _
  rw [emb6]

theorem read7 (c : Dev nD) (t : Fin cfg0.N) (p : Fin 2000) (q : Fin 128) (A : Buf (Elt Ideal) ((c : Thread nD τ).loc main_v28)) :
    ((cfg0.win 7).blk t).view.read (Elt Ideal) A (at128 p q) = A (ix2 (row t p) q) := by
  show A (((cfg0.win 7).blk t).view.emb (at128 p q)) = _
  rw [emb7]

/-- The staged blocks are those reads of the arrays as the kernel finds them. -/
theorem blk0 (c : Dev nD) (t : Fin cfg0.N) (p : Fin 2000) (c' : Fin 128) :
    iblk m c 0 t (at128 p c') = V m c main_arg0 (ix2 (row t p) c') := by
  unfold iblk
  exact read0 c t p c' (V m c main_arg0)

theorem blk1 (c : Dev nD) (t : Fin cfg0.N) (p : Fin 2000) (c' : Fin 16) :
    iblk m c 1 t (at16 p c') = V m c main_v15 (ix2 (row t p) c') := by
  unfold iblk
  exact read1 c t p c' (V m c main_v15)

theorem blk2 (c : Dev nD) (t : Fin cfg0.N) (p : Fin 2000) (c' : Fin 16) :
    iblk m c 2 t (at16 p c') = V m c main_v27 (ix2 (row t p) c') := by
  unfold iblk
  exact read2 c t p c' (V m c main_v27)

theorem blk3 (c : Dev nD) (t : Fin cfg0.N) : iblk m c 3 t = V m c main_arg3 := by
  unfold iblk
  exact read3 c t (V m c main_arg3)

theorem blk4 (c : Dev nD) (t : Fin cfg0.N) : iblk m c 4 t = V m c main_arg4 := by
  unfold iblk
  exact read4 c t (V m c main_arg4)

theorem blk5 (c : Dev nD) (t : Fin cfg0.N) : iblk m c 5 t = V m c main_arg5 := by
  unfold iblk
  exact read5 c t (V m c main_arg5)

theorem blk6 (c : Dev nD) (t : Fin cfg0.N) : iblk m c 6 t = V m c main_arg6 := by
  unfold iblk
  exact read6 c t (V m c main_arg6)

/-! ## What a point writes back, the cover, the whole array -/

/-- What point t writes back is tile t of the row function. -/
theorem flushed_eq (c : Dev nD) (t : Fin cfg0.N) :
    (dats m 0 c).flushed 7 t = ((cfg0.win 7).blk t).view.read (Elt Ideal) (whole m c) := by
  rw [Cert.KernelIdeal.Value.flushed7]
  unfold out0_7
  rw [View.canon_unit_zero zero2]
  simp only [View.ld_unit_zero (S := S2000x128) zero2, View.ld_unit_zero (S := S2000x16) zero2,
    View.ld_unit_zero (S := S160x128) zero2, View.ld_unit_zero (S := S128x128) zero2, View.ld_unit_zero (S := S128) zero1]
  funext j
  obtain ⟨p, q, rfl⟩ : ∃ (p : Fin 2000) (q : Fin 128), j = at128 p q :=
    ⟨⟨(j 0).val, (j 0).isLt⟩, ⟨(j 1).val, (j 1).isLt⟩, eq_ix2 (n0 := 2000) (n1 := 128) j⟩
  show k0_pay1 (F := Ideal) (iblk m c 0 t) (iblk m c 1 t) (iblk m c 2 t) (iblk m c 3 t) (iblk m c 4 t) (iblk m c 5 t) (iblk m c 6 t) (at128 p q)
    = _
  refine Eq.trans ?_ (read7 c t p q (whole m c)).symm
  refine Eq.trans ?_ (Cert.Mlp.mlp_ix2 (V m c main_arg0) (V m c main_v15) (V m c main_v27) (V m c main_arg3) (V m c main_arg4)
    (V m c main_arg5) (V m c main_arg6) (row t p) q).symm
  refine (Cert.KernelIdeal.Body.pay_apply (iblk m c 0 t) (iblk m c 1 t) (iblk m c 2 t) (iblk m c 3 t) (iblk m c 4 t)
    (iblk m c 5 t) (iblk m c 6 t) p q).trans ?_
  rw [blk3 m c t, blk4 m c t, blk5 m c t, blk6 m c t]
  exact mlpRow_congr (fun c' => blk0 m c t p c') (fun c' => blk1 m c t p c') (fun c' => blk2 m c t p c') _ _ _ _ q

/-- An index of the result is in point t's tile iff each coordinate is in the tile's range on its axis. -/
theorem mem_tile (t : Fin cfg0.N) (i : S100000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v28).slice (win0_7.rect t)).set ↔ _
  rw [View.set_slice_whole, Rect.mem_set_unit]
  exact Iff.rfl

/-- Every index of the result lies in some point's tile: row r in tile r / 2000. -/
theorem cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have hN : (i 0).val / 2000 < cfg0.N := by
    show (i 0).val / 2000 < grid0.N
    rw [N_0]; omega
  obtain ⟨-, -, -, -, -, -, -, -, -, -, -, -, e0, e1⟩ := tile_facts ⟨(i 0).val / 2000, hN⟩
  have e0' : win0_7.index ⟨(i 0).val / 2000, hN⟩ (0 : Fin 2) = (i 0).val / 2000 := e0
  refine ⟨⟨(i 0).val / 2000, hN⟩, flush0_7 _, ?_⟩
  rw [mem_tile]
  intro a
  match a with
  | ⟨0, _⟩ =>
    show win0_7.index ⟨(i 0).val / 2000, hN⟩ (0 : Fin 2) * 2000 ≤ (i 0).val
      ∧ (i 0).val < win0_7.index ⟨(i 0).val / 2000, hN⟩ (0 : Fin 2) * 2000 + 2000
    omega
  | ⟨1, _⟩ =>
    show win0_7.index ⟨(i 0).val / 2000, hN⟩ (1 : Fin 2) * 128 ≤ (i 1).val
      ∧ (i 1).val < win0_7.index ⟨(i 0).val / 2000, hN⟩ (1 : Fin 2) * 128 + 128
    omega

/-- The result array after the run is the row function of the arrays as the kernel finds them. -/
theorem final (c : Dev nD) : (dats m 0 c).arrAt 7 cfg0.N = whole m c :=
  (dats m 0 c).arrAt_eq_of_cover 7 (whole m c) (fun t _ => flushed_eq m c t) cover

/-- The kernel's run: the result is the row function, the arguments are unchanged. -/
theorem run : θ_run defs (onTc (τ := τ) (main (F := Ideal))) ⟨m, fun _ => 0, ρ⟩ fun r => ∀ c : Dev nD,
      r.2.mem ((c : Thread nD τ).loc main_v28) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Whole

end
-- ==== Proof.MeansIn.lean ====
/-
  The two arrays of edge-attribute means, as the kernel finds them.

  Before its tiles start, the kernel's program computes the means of the edge attributes over each node's incoming and
  outgoing edges with the very operations the reference uses: the two rows of the edge index, a sum of the attributes
  scattered by row, a count scattered the same way and raised to at least one, and their quotient. So the arrays the
  tiles read are the reference's two arrays of means of the same edge index and attributes, operation for operation;
  nothing about a scattered sum is used beyond its being the same function on both sides.
-/
import proofs.«167625_j74620761800880_1_alg».proof.Proof.Gen.KernelIdeal.Frame
import proofs.«167625_j74620761800880_1_alg».proof.Proof.Gen.ReferenceIdeal.Read
import Idealize.ShloMosaic.Lib.StableHlo.Run

noncomputable section

namespace Cert.KernelIdeal.MeansIn

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The means over incoming edges, as the tiles find them, are the reference's of the same edge index and attributes. -/
theorem incoming (c : Dev nD) :
    (V m c main_v15 : S100000x16.Idx → Ideal .f32)
      = Cert.ReferenceIdeal.Read.val_main_v15 (F := Ideal) (m ((c : Thread nD τ).loc main_arg1))
          (m ((c : Thread nD τ).loc main_arg2)) := by
  dsimp only [V, hostOps0]
  after_results_simp <;> rfl

/-- The means over outgoing edges, likewise. -/
theorem outgoing (c : Dev nD) :
    (V m c main_v27 : S100000x16.Idx → Ideal .f32)
      = Cert.ReferenceIdeal.Read.val_main_v27 (F := Ideal) (m ((c : Thread nD τ).loc main_arg1))
          (m ((c : Thread nD τ).loc main_arg2)) := by
  dsimp only [V, hostOps0]
  after_results_simp <;> rfl

end Cert.KernelIdeal.MeansIn

end
-- ==== Proof.KernelResult.lean ====
/-
  The kernel's result as a function of its arguments.

  No operation before the tiles writes x, the weights or the biases, so the tiles find them as launched; the two arrays
  of means they find are the reference's of the launched edge index and attributes. The row function of the arrays as
  found is therefore the row function of the launched arguments and those two arrays of means.
-/
import proofs.«167625_j74620761800880_1_alg».proof.Proof.KernelWhole
import proofs.«167625_j74620761800880_1_alg».proof.Proof.MeansIn

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The row function of the launched arguments, the means computed as the reference computes them. -/
def result (c : Dev nD) : S100000x128.Idx → Ideal .f32 :=
  Cert.Mlp.mlp (m ((c : Thread nD τ).loc main_arg0))
    (Cert.ReferenceIdeal.Read.val_main_v15 (F := Ideal) (m ((c : Thread nD τ).loc main_arg1)) (m ((c : Thread nD τ).loc main_arg2)))
    (Cert.ReferenceIdeal.Read.val_main_v27 (F := Ideal) (m ((c : Thread nD τ).loc main_arg1)) (m ((c : Thread nD τ).loc main_arg2)))
    (m ((c : Thread nD τ).loc main_arg3)) (m ((c : Thread nD τ).loc main_arg4)) (m ((c : Thread nD τ).loc main_arg5))
    (m ((c : Thread nD τ).loc main_arg6))

theorem whole_eq (c : Dev nD) : Cert.KernelIdeal.Whole.whole m c = result m c := by
  unfold result
  rw [← V_main_arg0 m c, ← V_main_arg3 m c, ← V_main_arg4 m c, ← V_main_arg5 m c, ← V_main_arg6 m c,
    ← Cert.KernelIdeal.MeansIn.incoming m c, ← Cert.KernelIdeal.MeansIn.outgoing m c]

/-- The kernel's run: the result is the row function of the launched arguments, the arguments are unchanged. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (whole_eq m c), (h c).2⟩) (Cert.KernelIdeal.Whole.run m ρ)

end Cert.KernelIdeal.Result

end
-- ==== Proof.RefRow.lean ====
/-
  The reference's result is the row function of its inputs.

  The reference joins x with its two arrays of edge-attribute means along the columns, multiplies by W1, adds b1 along the
  rows, applies the activation, multiplies by W2 and adds b2, on all 100000 rows at once. Each product is the plain sum
  over the contracted coordinate, so entry (a, q) of the result is entry q of the output row whose inputs are row a of x
  and of the two arrays of means. The two arrays of means are never opened here: they enter as the values the reference
  computes for them.
-/
import proofs.«167625_j74620761800880_1_alg».proof.Proof.Gen.ReferenceIdeal.Read
import proofs.«167625_j74620761800880_1_alg».proof.Proof.MlpRow

noncomputable section

namespace Cert.ReferenceIdeal.RefValue

open Cert.ReferenceIdeal Cert.ReferenceIdeal.Gen Cert.ReferenceIdeal.Read Idealize.ShloMosaic Idealize.ShloMosaic.ValueIdx

variable (x0 : (⟨S100000x128, .f32⟩ : BufTy).Contents (Elt Ideal)) (x1 : (⟨S2x3200000, .i32⟩ : BufTy).Contents (Elt Ideal))
  (x2 : (⟨S3200000x16, .f32⟩ : BufTy).Contents (Elt Ideal)) (x3 : (⟨S160x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))

/-- The joined row a of the reference: row a of x, then of the incoming means, then of the outgoing means. -/
abbrev featRow (a : Fin 100000) : Fin 160 → Ideal .f32 :=
  Cert.Mlp.catRow (fun c => x0 (ix2 a c)) (fun c => val_main_v15 (F := Ideal) x1 x2 (ix2 a c))
    (fun c => val_main_v27 (F := Ideal) x1 x2 (ix2 a c))

/-- A bias repeated down the rows reads its own entry. -/
theorem bias1_apply (a : Fin 100000) (k : Fin 128) : val_main_v31 (F := Ideal) x4 (ix2 a k) = x4 (ix1 k) := by
  rw [val_main_v31_apply, val_main_v30_apply]
  refine congrArg x4 (funext fun ax => Fin.ext ?_)
  match ax with
  | ⟨0, _⟩ => rfl

theorem bias2_apply (a : Fin 100000) (q : Fin 128) : val_main_v40 (F := Ideal) x6 (ix2 a q) = x6 (ix1 q) := by
  rw [val_main_v40_apply, val_main_v39_apply]
  refine congrArg x6 (funext fun ax => Fin.ext ?_)
  match ax with
  | ⟨0, _⟩ => rfl

/-- Entry (a, k) of the first layer is the hidden entry k of the joined row a. -/
theorem pre_apply (a : Fin 100000) (k : Fin 128) :
    val_main_v32 (F := Ideal) x0 x1 x2 x3 x4 (ix2 a k) = Cert.Mlp.hidden (featRow x0 x1 x2 a) x3 x4 k := by
  unfold Cert.Mlp.hidden
  rw [val_main_v32_apply, val_main_v29_apply, bias1_apply]
  refine congrArg₂ (· + ·) (Finset.sum_congr rfl fun c _ => ?_) rfl
  have el : lidx_main_v29 (ix2 a k) c = ix2 a c := funext fun ax => Fin.ext (by
    match ax with
    | ⟨0, _⟩ => rfl
    | ⟨1, _⟩ => rfl)
  have er : ridx_main_v29 (ix2 a k) c = ix2 c k := funext fun ax => Fin.ext (by
    match ax with
    | ⟨0, _⟩ => rfl
    | ⟨1, _⟩ => rfl)
  rw [el, er]
  refine congrArg (· * x3 (ix2 c k)) ?_
  unfold val_main_v28
  exact Cert.Mlp.concat3_apply (n := 100000) x0 (val_main_v15 (F := Ideal) x1 x2) (val_main_v27 (F := Ideal) x1 x2)
    concatenates_S100000x128_S100000x16_S100000x16_S100000x160_d1 a c

/-- Entry (a, k) after the activation. -/
theorem act_apply (a : Fin 100000) (k : Fin 128) :
    val_main_v37 (F := Ideal) x0 x1 x2 x3 x4 (ix2 a k) = Cert.Mlp.leaky (Cert.Mlp.hidden (featRow x0 x1 x2 a) x3 x4 k) := by
  rw [val_main_v37_apply, val_main_v34_apply, val_main_v36_apply, val_main_v33_apply, val_main_v35_apply,
    val_main_cst_7_apply, val_main_cst_8_apply, pre_apply]
  rfl

/-- The reference's result is the row function of x, the two arrays of means, and the weights. -/
theorem result_eq :
    val_main_v41 (F := Ideal) x0 x1 x2 x3 x4 x5 x6
      = Cert.Mlp.mlp x0 (val_main_v15 (F := Ideal) x1 x2) (val_main_v27 (F := Ideal) x1 x2) x3 x4 x5 x6 := by
  funext i
  obtain ⟨a, q, rfl⟩ : ∃ (a : Fin 100000) (q : Fin 128), i = ix2 a q := ⟨i 0, i 1, eq_ix2 i⟩
  rw [Cert.Mlp.mlp_ix2]
  unfold Cert.Mlp.mlpRow
  rw [val_main_v41_apply, val_main_v38_apply, bias2_apply]
  refine congrArg₂ (· + ·) (Finset.sum_congr rfl fun k _ => ?_) rfl
  have el : lidx_main_v38 (ix2 a q) k = ix2 a k := funext fun ax => Fin.ext (by
    match ax with
    | ⟨0, _⟩ => rfl
    | ⟨1, _⟩ => rfl)
  have er : ridx_main_v38 (ix2 a q) k = ix2 k q := funext fun ax => Fin.ext (by
    match ax with
    | ⟨0, _⟩ => rfl
    | ⟨1, _⟩ => rfl)
  rw [el, er, act_apply]

end Cert.ReferenceIdeal.RefValue

end
-- ==== Proof.lean ====
/-
  A graph layer: per node, the node's 128 features joined with the means of the attributes of its incoming and of its
  outgoing edges (16 each), then a linear layer 160 → 128 with bias, the activation that keeps h where h ≥ 0 and scales it
  by a fixed slope elsewhere, and a linear layer 128 → 128 with bias.

  The kernel's program and the reference compute the two arrays of means with the same operations. The reference then
  joins the three arrays and applies the two layers to all 100000 rows at once; the kernel applies them in 50 tiles of
  2000 rows, joining the three row blocks inside each tile, with its products taken into a zero accumulator on operands
  narrowed to a 16-bit format. Over the extended reals the narrowing is the identity and each product is the plain sum
  over the contracted coordinate, on both sides with the same index set in the same role; output row a depends on row a
  of the inputs only, so the tiles assemble to the reference's result. No sum is regrouped and no factor is moved across
  a sum, so the finiteness of the inputs is not used.

  The three frames are the generated ones (the reference's is its generated run with the result dropped); the
  idealization rewrote nothing, so there is nothing to preserve beyond the text itself.
-/
import proofs.«167625_j74620761800880_1_alg».proof.Defs
import proofs.«167625_j74620761800880_1_alg».proof.Proof.Gen.Kernel
import proofs.«167625_j74620761800880_1_alg».proof.Proof.Gen.Kernel.Frame
import proofs.«167625_j74620761800880_1_alg».proof.Proof.Gen.KernelIdeal
import proofs.«167625_j74620761800880_1_alg».proof.Proof.Gen.KernelIdeal.Frame
import proofs.«167625_j74620761800880_1_alg».proof.Proof.Gen.KernelIdeal.Value
import proofs.«167625_j74620761800880_1_alg».proof.Proof.Gen.ReferenceIdeal
import proofs.«167625_j74620761800880_1_alg».proof.Proof.Gen.ReferenceIdeal.Run
import proofs.«167625_j74620761800880_1_alg».proof.Proof.Gen.ReferenceIdeal.Read
import proofs.«167625_j74620761800880_1_alg».proof.Proof.Gen.Pre_finite_inputs
import proofs.«167625_j74620761800880_1_alg».proof.Proof.KernelResult
import proofs.«167625_j74620761800880_1_alg».proof.Proof.RefRow
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result (its tiles assembled) and the reference's result are
    the same row function of the same arguments and the same two arrays of means. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v41_eq, Cert.ReferenceIdeal.RefValue.result_eq, h0, h1, h2, h3, h4, h5, h6]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
